-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128x128 .f32) (main_arg10 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩

abbrev nBuf : Space → Nat
  | .hbm => 71
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S_, .f32⟩
  | .hbm, ⟨25, _⟩ => ⟨S1600000, .f32⟩
  | .hbm, ⟨26, _⟩ => ⟨S_, .f32⟩
  | .hbm, ⟨27, _⟩ => ⟨S100000, .f32⟩
  | .hbm, ⟨28, _⟩ => ⟨S1600000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S128x128, .f32⟩
  | .hbm, ⟨37, _⟩ => ⟨S128x128, .f32⟩
  | .hbm, ⟨38, _⟩ => ⟨S1x128, .f32⟩
  | .hbm, ⟨39, _⟩ => ⟨S1x128, .f32⟩
  | .hbm, ⟨40, _⟩ => ⟨S100000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S_, .f32⟩
  | .hbm, ⟨55, _⟩ => ⟨S1600000, .f32⟩
  | .hbm, ⟨56, _⟩ => ⟨S_, .f32⟩
  | .hbm, ⟨57, _⟩ => ⟨S100000, .f32⟩
  | .hbm, ⟨58, _⟩ => ⟨S1600000x1, .i32⟩
  | .hbm, ⟨59, _⟩ => ⟨S100000, .f32⟩
  | .hbm, ⟨60, _⟩ => ⟨S_, .f32⟩
  | .hbm, ⟨61, _⟩ => ⟨S100000, .f32⟩
  | .hbm, ⟨62, _⟩ => ⟨S100000, .f32⟩
  | .hbm, ⟨63, _⟩ => ⟨S100000x1, .f32⟩
  | .hbm, ⟨64, _⟩ => ⟨S100000x128, .f32⟩
  | .hbm, ⟨65, _⟩ => ⟨S100000x128, .f32⟩
  | .hbm, ⟨66, _⟩ => ⟨S128x128, .f32⟩
  | .hbm, ⟨67, _⟩ => ⟨S128x128, .f32⟩
  | .hbm, ⟨68, _⟩ => ⟨S1x128, .f32⟩
  | .hbm, ⟨69, _⟩ => ⟨S1x128, .f32⟩
  | .hbm, ⟨70, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_cst_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_9 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v23) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v46) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v47) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 92
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S_, .f32⟩
  | .hbm, ⟨25, _⟩ => ⟨S1600000, .f32⟩
  | .hbm, ⟨26, _⟩ => ⟨S_, .f32⟩
  | .hbm, ⟨27, _⟩ => ⟨S100000, .f32⟩
  | .hbm, ⟨28, _⟩ => ⟨S1600000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S100000x128, .f32⟩
  | .hbm, ⟨44, _⟩ => ⟨S1x128, .f32⟩
  | .hbm, ⟨45, _⟩ => ⟨S100000x128, .f32⟩
  | .hbm, ⟨46, _⟩ => ⟨S100000x128, .f32⟩
  | .hbm, ⟨47, _⟩ => ⟨S_, .f32⟩
  | .hbm, ⟨48, _⟩ => ⟨S100000x128, .f32⟩
  | .hbm, ⟨49, _⟩ => ⟨S100000x128, .f32⟩
  | .hbm, ⟨50, _⟩ => ⟨S_, .f32⟩
  | .hbm, ⟨51, _⟩ => ⟨S100000x128, .f32⟩
  | .hbm, ⟨52, _⟩ => ⟨S100000x128, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x128, .f32⟩
  | .hbm, ⟨62, _⟩ => ⟨S_, .f32⟩
  | .hbm, ⟨63, _⟩ => ⟨S100000x128, .f32⟩
  | .hbm, ⟨64, _⟩ => ⟨S1600000x1, .i32⟩
  | .hbm, ⟨65, _⟩ => ⟨S100000x128, .f32⟩
  | .hbm, ⟨66, _⟩ => ⟨S_, .f32⟩
  | .hbm, ⟨67, _⟩ => ⟨S1600000, .f32⟩
  | .hbm, ⟨68, _⟩ => ⟨S_, .f32⟩
  | .hbm, ⟨69, _⟩ => ⟨S100000, .f32⟩
  | .hbm, ⟨70, _⟩ => ⟨S1600000x1, .i32⟩
  | .hbm, ⟨71, _⟩ => ⟨S100000, .f32⟩
  | .hbm, ⟨72, _⟩ => ⟨S_, .f32⟩
  | .hbm, ⟨73, _⟩ => ⟨S100000, .f32⟩
  | .hbm, ⟨74, _⟩ => ⟨S100000, .f32⟩
  | .hbm, ⟨75, _⟩ => ⟨S100000x1, .f32⟩
  | .hbm, ⟨76, _⟩ => ⟨S100000x128, .f32⟩
  | .hbm, ⟨77, _⟩ => ⟨S100000x128, .f32⟩
  | .hbm, ⟨78, _⟩ => ⟨S100000x128, .f32⟩
  | .hbm, ⟨79, _⟩ => ⟨S128x128, .f32⟩
  | .hbm, ⟨80, _⟩ => ⟨S100000x128, .f32⟩
  | .hbm, ⟨81, _⟩ => ⟨S1x128, .f32⟩
  | .hbm, ⟨82, _⟩ => ⟨S100000x128, .f32⟩
  | .hbm, ⟨83, _⟩ => ⟨S100000x128, .f32⟩
  | .hbm, ⟨84, _⟩ => ⟨S128x128, .f32⟩
  | .hbm, ⟨85, _⟩ => ⟨S100000x128, .f32⟩
  | .hbm, ⟨86, _⟩ => ⟨S1x128, .f32⟩
  | .hbm, ⟨87, _⟩ => ⟨S100000x128, .f32⟩
  | .hbm, ⟨88, _⟩ => ⟨S100000x128, .f32⟩
  | .hbm, ⟨89, _⟩ => ⟨S_, .f32⟩
  | .hbm, ⟨90, _⟩ => ⟨S100000x128, .f32⟩
  | .hbm, ⟨91, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_call0_cst : Ref sig .tc := ⟨.hbm, 47, rfl⟩
abbrev main_call0_v0 : Ref sig .tc := ⟨.hbm, 48, rfl⟩
abbrev main_v30 : Ref sig .tc := ⟨.hbm, 49, rfl⟩
abbrev main_call1_cst : Ref sig .tc := ⟨.hbm, 50, rfl⟩
abbrev main_call1_v0 : Ref sig .tc := ⟨.hbm, 51, rfl⟩
abbrev main_v31 : Ref sig .tc := ⟨.hbm, 52, rfl⟩
abbrev main_c_4 : Ref sig .tc := ⟨.hbm, 53, rfl⟩
abbrev main_v32 : Ref sig .tc := ⟨.hbm, 54, rfl⟩
abbrev main_v33 : Ref sig .tc := ⟨.hbm, 55, rfl⟩
abbrev main_c_5 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_6 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_7 : Ref sig .tc := ⟨.hbm, 66, rfl⟩
abbrev main_v42 : Ref sig .tc := ⟨.hbm, 67, rfl⟩
abbrev main_cst_8 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_9 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_call2_cst : Ref sig .tc := ⟨.hbm, 89, rfl⟩
abbrev main_call2_v0 : Ref sig .tc := ⟨.hbm, 90, rfl⟩
abbrev main_v62 : Ref sig .tc := ⟨.hbm, 91, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel program's run with its result array NAMED.  @main is four segments: the host operations
  before the first kernel call, that call, the host operations between the calls, the second call.  The buffer
  contents at each boundary are the fold `W0 … W4` of the generated frame module (a host stretch applies its
  operations to what it finds; a call leaves each of its arrays at what its write-backs left and every other
  buffer alone).  Every weakly fair execution terminates with every unscoped buffer at `W4`: in particular the
  result array `main_v47` ends at `W4` of it, and the eleven argument arrays end as launched.
-/
import proofs.«177206_j16518444220924_1_alg».proof.Proof.Gen.KernelIdeal.Frame

set_option maxRecDepth 16384

noncomputable section

namespace Cert.KernelIdeal.GinRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result array at the last boundary's contents and the arguments unchanged. -/
theorem run : θ_run defs (onTc (τ := τ) (main (F := F))) ⟨m, fun _ => 0, ρ⟩ (fun r => ∀ c : Dev nD,
      r.2.mem ((c.tc : Thread nD τ).loc main_v47) = W4 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v47 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)

end Cert.KernelIdeal.GinRun

end
-- ==== Proof.LibMatmul.lean ====
/-
  Plain matrix products read at an index, at the ideal values.  For dimension numbers that contract the
  left operand's axis 1 with the right operand's axis 0, keep the left operand's axis 0 and the right
  operand's axis 1 and have no batch axis, a `tpu.matmul` into the zero accumulator and the host's
  `dot_general` are both, at the output index (p, q), the sum over k of x(p, k) · w(k, q).
-/
import Idealize.ShloMosaic.PureOps.Ideal.Laws
import Idealize.ShloMosaic.Lib.ValueIdx

noncomputable section

open scoped BigOperators

namespace Cert.LibMatmul

open Idealize.ShloMosaic Idealize.ShloMosaic.ValueIdx

/-- The matrix product of two arrays of extended reals, index by index. -/
def MM {A K B : Nat} (x : (⟨2, ![A, K]⟩ : Shape).Idx → EReal) (w : (⟨2, ![K, B]⟩ : Shape).Idx → EReal) :
    (⟨2, ![A, B]⟩ : Shape).Idx → EReal :=
  fun i => ∑ k : Fin K, x (ix2 (i 0) k) * w (ix2 k (i 1))

theorem MM_apply {A K B : Nat} (x : (⟨2, ![A, K]⟩ : Shape).Idx → EReal) (w : (⟨2, ![K, B]⟩ : Shape).Idx → EReal)
    (p : Fin A) (q : Fin B) : MM x w (ix2 p q) = ∑ k : Fin K, x (ix2 p k) * w (ix2 k q) := rfl

section Plain
variable {A K B : Nat} (d : DotDims ⟨2, ![A, K]⟩ ⟨2, ![K, B]⟩ ⟨2, ![A, B]⟩)
  (hlb : d.lhsBatch = []) (hln : d.lhsNonContracting = [0]) (hlc : d.lhsContracting = [1])
  (hrb : d.rhsBatch = []) (hrn : d.rhsNonContracting = [1]) (hrc : d.rhsContracting = [0])

include hlc in
theorem contr_rank : d.contr.rank = 1 := by rw [d.rank_contr, hlc]; rfl

include hlc in
theorem contr_size : d.contr.size ⟨0, by rw [contr_rank d hlc]; exact Nat.one_pos⟩ = K := by
  have hp : 0 < d.lhsContracting.length := by rw [hlc]; exact Nat.one_pos
  have := d.size_contr 0 hp
  simp only [hlc] at this
  exact this

include hlb hln hlc in
/-- The left operand's index at output index `j` and contraction position `k` is (j₀, k). -/
theorem lhsIdx_eq (j : (⟨2, ![A, B]⟩ : Shape).Idx) (k : d.contr.Idx) :
    d.lhsIdx j k = ix2 (j 0) ((contrEquiv1 d K (contr_rank d hlc) (contr_size d hlc)) k) := by
  funext a; apply Fin.ext
  match a with
  | ⟨0, _⟩ =>
    show (d.lhsIdx j k 0).val = (j 0).val
    have h0b : (0 : Fin (⟨2, ![A, K]⟩ : Shape).rank) ∉ d.lhsBatch := by rw [hlb]; exact List.not_mem_nil
    have h0n : (0 : Fin (⟨2, ![A, K]⟩ : Shape).rank) ∈ d.lhsNonContracting := by rw [hln]; exact List.mem_singleton.mpr rfl
    unfold DotDims.lhsIdx
    rw [dif_neg h0b, dif_pos h0n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln])
  | ⟨1, _⟩ =>
    show (d.lhsIdx j k 1).val = _
    rw [d.lhsIdx_val_of_single hlc j k]
    simp [contrEquiv1]

include hrb hrn hrc hlb hln hlc in
/-- The right operand's index at output index `j` and contraction position `k` is (k, j₁). -/
theorem rhsIdx_eq (j : (⟨2, ![A, B]⟩ : Shape).Idx) (k : d.contr.Idx) :
    d.rhsIdx j k = ix2 ((contrEquiv1 d K (contr_rank d hlc) (contr_size d hlc)) k) (j 1) := by
  funext a; apply Fin.ext
  match a with
  | ⟨0, _⟩ =>
    show (d.rhsIdx j k 0).val = _
    rw [d.rhsIdx_val_of_single hrc j k]
    simp [contrEquiv1]
  | ⟨1, _⟩ =>
    show (d.rhsIdx j k 1).val = (j 1).val
    have h1b : (1 : Fin (⟨2, ![K, B]⟩ : Shape).rank) ∉ d.rhsBatch := by rw [hrb]; exact List.not_mem_nil
    have h1n : (1 : Fin (⟨2, ![K, B]⟩ : Shape).rank) ∈ d.rhsNonContracting := by rw [hrn]; exact List.mem_singleton.mpr rfl
    unfold DotDims.rhsIdx
    rw [dif_neg h1b, dif_pos h1n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln, hrn])

include hrb hrn hrc hlb hln hlc in
/-- The contraction's sum is the matrix product at the index. -/
theorem plain_sum (x : (⟨2, ![A, K]⟩ : Shape).Idx → EReal) (w : (⟨2, ![K, B]⟩ : Shape).Idx → EReal)
    (j : (⟨2, ![A, B]⟩ : Shape).Idx) :
    ∑ k : d.contr.Idx, x (d.lhsIdx j k) * w (d.rhsIdx j k) = MM x w j := by
  unfold MM
  rw [← Equiv.sum_comp (contrEquiv1 d K (contr_rank d hlc) (contr_size d hlc)) (fun k' => x (ix2 (j 0) k') * w (ix2 k' (j 1)))]
  refine Finset.sum_congr rfl fun k _ => ?_
  rw [lhsIdx_eq d hlb hln hlc j k, rhsIdx_eq d hlb hln hlc hrb hrn hrc j k]
  rfl

include hrb hrn hrc hlb hln hlc in
/-- A `tpu.matmul` into the zero accumulator is the matrix product. -/
theorem matmul_zero_eq {φ₁ φ₂ : FTy} (prec : Option ContractPrecision) (x : FVec Ideal ⟨2, ![A, K]⟩ φ₁) (w : FVec Ideal ⟨2, ![K, B]⟩ φ₂) :
    FloatOps.matmul d prec x w (constant ⟨2, ![A, B]⟩ .f32 0x00000000#32) = MM x w := by
  funext j
  rw [Ideal.matmul_constant_zero_apply]
  exact plain_sum d hlb hln hlc hrb hrn hrc x w j

include hrb hrn hrc hlb hln hlc in
/-- The host's `dot_general` is the matrix product. -/
theorem dotGeneral_eq {φ₁ φ₂ : FTy} (prec : Option ContractPrecision) (sched : HostSchedule) (x : FVec Ideal ⟨2, ![A, K]⟩ φ₁) (w : FVec Ideal ⟨2, ![K, B]⟩ φ₂) :
    FloatOps.dotGeneral d prec sched x w = MM x w := by
  funext j
  rw [Ideal.dotGeneral_apply]
  exact plain_sum d hlb hln hlc hrb hrn hrc x w j

end Plain

end Cert.LibMatmul

end
-- ==== Proof.GinSpec.lean ====
/-
  One layer of the network, and the two layers one after the other, as functions of whole arrays of
  extended reals.  A layer takes the node features `x` and the aggregated neighbour features `agg`
  (both [A, 128]), adds them, applies two affine maps (a matrix product with a [128, 128] matrix, then a
  bias added to every row) and clamps at zero:

      layer x agg wa ba wb bb (r, q) = max (Σ k₂, (Σ k₁, (x (r, k₁) + agg (r, k₁)) · wa (k₁, k₂) + ba k₂) · wb (k₂, q) + bb q) 0.

  Every entry of the result depends on ONE row of `x` and `agg`, so a block of consecutive rows of the result is
  the layer of the same block of rows (`layer_rows`).  Clamping at zero twice is clamping once (`relu_relu`).
-/
import Idealize.ShloMosaic.PureOps.Ideal.Laws
import Idealize.ShloMosaic.Lib.ValueIdx
import proofs.«177206_j16518444220924_1_alg».proof.Proof.LibMatmul

noncomputable section

open scoped BigOperators

namespace Cert.GinSpec

open Idealize.ShloMosaic Idealize.ShloMosaic.ValueIdx Cert.LibMatmul

/-- An [A, B] array of extended reals. -/
abbrev Mat (A B : Nat) := (⟨2, ![A, B]⟩ : Shape).Idx → EReal

/-- The first affine map of a layer: `(x + agg) · wa + ba`, the bias added to every row. -/
def hidden {A : Nat} (x agg : Mat A 128) (wa : Mat 128 128) (ba : Fin 128 → EReal) : Mat A 128 :=
  fun j => MM (fun l => x l + agg l) wa j + ba (j 1)

/-- One layer: two affine maps, then the clamp at zero. -/
def layer {A : Nat} (x agg : Mat A 128) (wa : Mat 128 128) (ba : Fin 128 → EReal) (wb : Mat 128 128)
    (bb : Fin 128 → EReal) : Mat A 128 :=
  fun i => max (MM (hidden x agg wa ba) wb i + bb (i 1)) 0

/-- The rows `off, off + 1, …, off + B - 1` of an array. -/
def rowsAt {A B C : Nat} (off : Nat) (h : off + B ≤ A) (X : Mat A C) : Mat B C :=
  fun y => X (ix2 ⟨off + (y 0).val, Nat.lt_of_lt_of_le (Nat.add_lt_add_left (y 0).isLt off) h⟩ (y 1))

/-- A matrix product's rows depend on the same rows of the left factor only. -/
theorem MM_rows {A B K C : Nat} (off : Nat) (h : off + B ≤ A) (X : Mat A K) (w : Mat K C) :
    MM (rowsAt off h X) w = rowsAt off h (MM X w) := rfl

/-- A layer's rows depend on the same rows of `x` and `agg` only. -/
theorem layer_rows {A B : Nat} (off : Nat) (h : off + B ≤ A) (x agg : Mat A 128) (wa : Mat 128 128)
    (ba : Fin 128 → EReal) (wb : Mat 128 128) (bb : Fin 128 → EReal) :
    layer (rowsAt off h x) (rowsAt off h agg) wa ba wb bb = rowsAt off h (layer x agg wa ba wb bb) := rfl

/-- Clamping at zero twice is clamping once. -/
theorem relu_relu (a z : EReal) : max (max a z) z = max a z := by
  rw [max_assoc, max_self]

/-- The whole network: two layers, the second fed the first's result and ITS aggregate, for any aggregation
    `aggF` of an [A, 128] array (here the mean over a node's in-neighbours, which the proof never opens). -/
def network {A : Nat} (aggF : Mat A 128 → Mat A 128) (x : Mat A 128)
    (w1a : Mat 128 128) (b1a : Fin 128 → EReal) (w1b : Mat 128 128) (b1b : Fin 128 → EReal)
    (w2a : Mat 128 128) (b2a : Fin 128 → EReal) (w2b : Mat 128 128) (b2b : Fin 128 → EReal) : Mat A 128 :=
  layer (layer x (aggF x) w1a b1a w1b b1b) (aggF (layer x (aggF x) w1a b1a w1b b1b)) w2a b2a w2b b2b

end Cert.GinSpec

end
-- ==== Proof.KernelBody.lean ====
/-
  What one grid point of either kernel call stores, as a function of the blocks it loads: the layer
  (GinSpec) of the block of node rows and of the block of aggregate rows, with the two weight matrices
  and the two bias rows it holds whole.  The body's conversions to bf16 are the identity on extended reals,
  a product accumulated from the zero splat is the matrix product, the [1, 128] bias row broadcast over the
  block's rows adds the bias to every row, and the maximum with the zero splat is the clamp.
-/
import proofs.«177206_j16518444220924_1_alg».proof.Proof.Gen.KernelIdeal.Skeleton
import proofs.«177206_j16518444220924_1_alg».proof.Proof.GinSpec
import Idealize.ShloMosaic.Lib.Pipeline.Value
import Idealize.ShloMosaic.Lib.ValueLayout

noncomputable section

open scoped BigOperators

namespace Cert.KernelIdeal.GinBody

open Cert.KernelIdeal Cert.KernelIdeal.Gen Idealize.ShloMosaic Idealize.ShloMosaic.ValueIdx Cert.LibMatmul Cert.GinSpec

/-- The kernel's matrix product into the zero splat is the matrix product of the two operands. -/
theorem matmul_eq {φ₁ φ₂ : FTy} (x : FVec Ideal S5000x128 φ₁) (w : FVec Ideal S128x128 φ₂) :
    matmul dot_S5000x128_S128x128_S5000x128_1_0_0_1_n_n none x w (constant S5000x128 .f32 0x00000000#32) = MM (A := 5000) (K := 128) (B := 128) x w :=
  matmul_zero_eq dot_S5000x128_S128x128_S5000x128_1_0_0_1_n_n rfl rfl rfl rfl rfl rfl none x w

/-- The bias row broadcast over the block: every row reads the one row. -/
theorem bias_bcast (v : FVec Ideal S1x128 .f32) (p : Fin 5000) (q : Fin 128) :
    broadcastTo S5000x128 v broadcasts_S1x128_S5000x128 (ix2 p q) = v (ix2 (0 : Fin 1) q) :=
  broadcastTo_1b_ab_apply v broadcasts_S1x128_S5000x128 p q

/-- The stored value of the first call's body. -/
theorem pay0_eq (v0 v1 : Vec Ideal S5000x128 .f32) (v5 : Vec Ideal S128x128 .f32) (v9 : Vec Ideal S1x128 .f32)
    (v14 : Vec Ideal S128x128 .f32) (v18 : Vec Ideal S1x128 .f32) :
    k0_pay1 (F := Ideal) v0 v1 v5 v9 v14 v18
      = layer (A := 5000) v0 v1 v5 (fun k => v9 (ix2 (0 : Fin 1) k)) v14 (fun k => v18 (ix2 (0 : Fin 1) k)) := by
  funext y
  obtain ⟨p, q, rfl⟩ : ∃ (p : Fin 5000) (q : Fin 128), y = ix2 p q := ⟨y 0, y 1, eq_ix2 y⟩
  unfold k0_pay1
  simp only [shapeCast_self, matmul_eq]
  have hh : (fun j => MM (A := 5000) (fun l => v0 l + v1 l) v5 j + broadcastTo S5000x128 v9 broadcasts_S1x128_S5000x128 j)
      = hidden (A := 5000) v0 v1 v5 (fun k => v9 (ix2 (0 : Fin 1) k)) := by
    funext j
    obtain ⟨a, b, rfl⟩ : ∃ (a : Fin 5000) (b : Fin 128), j = ix2 a b := ⟨j 0, j 1, eq_ix2 j⟩
    rw [bias_bcast]
    rfl
  show max (MM (A := 5000) (fun j => MM (A := 5000) (fun l => v0 l + v1 l) v5 j + broadcastTo S5000x128 v9 broadcasts_S1x128_S5000x128 j) v14 (ix2 p q)
      + broadcastTo S5000x128 v18 broadcasts_S1x128_S5000x128 (ix2 p q)) (Ideal.ofBits .f32 0x00000000#32) = _
  rw [Ideal.ofBits_zero_f32, bias_bcast, hh]
  rfl

/-- The stored value of the second call's body: the same function of its blocks. -/
theorem pay1_eq (v0 v1 : Vec Ideal S5000x128 .f32) (v5 : Vec Ideal S128x128 .f32) (v9 : Vec Ideal S1x128 .f32)
    (v14 : Vec Ideal S128x128 .f32) (v18 : Vec Ideal S1x128 .f32) :
    k1_pay1 (F := Ideal) v0 v1 v5 v9 v14 v18
      = layer (A := 5000) v0 v1 v5 (fun k => v9 (ix2 (0 : Fin 1) k)) v14 (fun k => v18 (ix2 (0 : Fin 1) k)) := by
  funext y
  obtain ⟨p, q, rfl⟩ : ∃ (p : Fin 5000) (q : Fin 128), y = ix2 p q := ⟨y 0, y 1, eq_ix2 y⟩
  unfold k1_pay1
  simp only [shapeCast_self, matmul_eq]
  have hh : (fun j => MM (A := 5000) (fun l => v0 l + v1 l) v5 j + broadcastTo S5000x128 v9 broadcasts_S1x128_S5000x128 j)
      = hidden (A := 5000) v0 v1 v5 (fun k => v9 (ix2 (0 : Fin 1) k)) := by
    funext j
    obtain ⟨a, b, rfl⟩ : ∃ (a : Fin 5000) (b : Fin 128), j = ix2 a b := ⟨j 0, j 1, eq_ix2 j⟩
    rw [bias_bcast]
    rfl
  show max (MM (A := 5000) (fun j => MM (A := 5000) (fun l => v0 l + v1 l) v5 j + broadcastTo S5000x128 v9 broadcasts_S1x128_S5000x128 j) v14 (ix2 p q)
      + broadcastTo S5000x128 v18 broadcasts_S1x128_S5000x128 (ix2 p q)) (Ideal.ofBits .f32 0x00000000#32) = _
  rw [Ideal.ofBits_zero_f32, bias_bcast, hh]
  rfl

end Cert.KernelIdeal.GinBody

end
-- ==== Proof.KernelRegion.lean ====
/-
  Each kernel call's output array after its grid of twenty points, for ANY contents `V` the call finds in
  its arrays: point `t` loads rows `5000 t … 5000 t + 4999` of the node array and of the aggregate array and the
  whole weight and bias arrays, stores the layer (GinSpec) of them, and writes that block back to the same rows
  of the output; a layer's rows depend on the same rows of its two row operands only, and the twenty blocks
  cover the 100000 rows, so the array ends holding the layer of the whole arrays.
-/
import proofs.«177206_j16518444220924_1_alg».proof.Proof.Gen.KernelIdeal.Frame
import proofs.«177206_j16518444220924_1_alg».proof.Proof.KernelBody
import Idealize.ShloMosaic.Lib.Pipeline.Value

set_option maxRecDepth 16384

noncomputable section

namespace Cert.KernelIdeal.GinRegion

open Cert.KernelIdeal Cert.KernelIdeal.Gen Cert.KernelIdeal.GinBody Idealize.ShloMosaic Idealize.ShloMosaic.TcCoe Idealize.ShloMosaic.ValueIdx
open Idealize.SL.Sem Cert.LibMatmul Cert.GinSpec
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## Call 0 -/

/-- The index maps of call 0, decided over its twenty points: the two row windows and the output window sit at
    block row `t`, the weight and bias windows at their one block. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem rows_le0 (t : Fin cfg0.N) : 5000 * t.val + 5000 ≤ 100000 := by
  have h : t.val < 20 := lt_of_lt_of_eq t.isLt N_0
  omega

/-- The block of a row window at point `t` is the rows `5000 t … 5000 t + 4999` of its array. -/
theorem blk0_0 (c : Dev nD) (t : Fin cfg0.N) :
    (iblk0 V c 0 t : Vec Ideal S5000x128 .f32) = rowsAt (A := 100000) (B := 5000) (5000 * t.val) (rows_le0 t) (V c main_arg0) := by
  obtain ⟨e0, e1, -⟩ := idx_facts0 t
  funext y
  show V c main_arg0 (((cfg0.win 0).blk t).view.emb y) = V c main_arg0 (ix2 ⟨5000 * t.val + (y 0).val, _⟩ (y 1))
  refine congrArg (V c main_arg0) (funext fun a => Fin.ext ?_)
  match a with
  | ⟨0, _⟩ => show win0_0.index t (0 : Fin 2) * 5000 + 1 * (y 0).val = 5000 * t.val + (y 0).val; rw [e0]; omega
  | ⟨1, _⟩ => show win0_0.index t (1 : Fin 2) * 128 + 1 * (y 1).val = (y 1).val; rw [e1]; omega

theorem blk0_1 (c : Dev nD) (t : Fin cfg0.N) :
    (iblk0 V c 1 t : Vec Ideal S5000x128 .f32) = rowsAt (A := 100000) (B := 5000) (5000 * t.val) (rows_le0 t) (V c main_v18) := by
  obtain ⟨-, -, e0, e1, -⟩ := idx_facts0 t
  funext y
  show V c main_v18 (((cfg0.win 1).blk t).view.emb y) = V c main_v18 (ix2 ⟨5000 * t.val + (y 0).val, _⟩ (y 1))
  refine congrArg (V c main_v18) (funext fun a => Fin.ext ?_)
  match a with
  | ⟨0, _⟩ => show win0_1.index t (0 : Fin 2) * 5000 + 1 * (y 0).val = 5000 * t.val + (y 0).val; rw [e0]; omega
  | ⟨1, _⟩ => show win0_1.index t (1 : Fin 2) * 128 + 1 * (y 1).val = (y 1).val; rw [e1]; omega

/-- The block of a weight or bias window at any point is its whole array. -/
theorem blk0_2 (c : Dev nD) (t : Fin cfg0.N) : (iblk0 V c 2 t : Vec Ideal S128x128 .f32) = V c main_v19 := by
  obtain ⟨-, -, -, -, e0, e1, -⟩ := idx_facts0 t
  funext y
  show V c main_v19 (((cfg0.win 2).blk t).view.emb y) = V c main_v19 y
  refine congrArg (V c main_v19) (funext fun a => Fin.ext ?_)
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

theorem blk0_3 (c : Dev nD) (t : Fin cfg0.N) : (iblk0 V c 3 t : Vec Ideal S1x128 .f32) = V c main_v21 := by
  obtain ⟨-, -, -, -, -, -, e0, e1, -⟩ := idx_facts0 t
  funext y
  show V c main_v21 (((cfg0.win 3).blk t).view.emb y) = V c main_v21 y
  refine congrArg (V c main_v21) (funext fun a => Fin.ext ?_)
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega

theorem blk0_4 (c : Dev nD) (t : Fin cfg0.N) : (iblk0 V c 4 t : Vec Ideal S128x128 .f32) = V c main_v20 := by
  obtain ⟨-, -, -, -, -, -, -, -, e0, e1, -⟩ := idx_facts0 t
  funext y
  show V c main_v20 (((cfg0.win 4).blk t).view.emb y) = V c main_v20 y
  refine congrArg (V c main_v20) (funext fun a => Fin.ext ?_)
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

theorem blk0_5 (c : Dev nD) (t : Fin cfg0.N) : (iblk0 V c 5 t : Vec Ideal S1x128 .f32) = V c main_v22 := by
  obtain ⟨-, -, -, -, -, -, -, -, -, -, e0, e1, -⟩ := idx_facts0 t
  funext y
  show V c main_v22 (((cfg0.win 5).blk t).view.emb y) = V c main_v22 y
  refine congrArg (V c main_v22) (funext fun a => Fin.ext ?_)
  match a with
  | ⟨0, _⟩ => show win0_5.index t (0 : Fin 2) * 1 + 1 * (y 0).val = (y 0).val; rw [e0]; omega
  | ⟨1, _⟩ => show win0_5.index t (1 : Fin 2) * 128 + 1 * (y 1).val = (y 1).val; rw [e1]; omega

/-- The output window's block at point `t`, read off any whole array, is that array's rows `5000 t …`. -/
theorem read0_6 (t : Fin cfg0.N) (G : Mat 100000 128) :
    (((cfg0.win 6).blk t).view.read (Elt Ideal) G : Vec Ideal S5000x128 .f32) = rowsAt (A := 100000) (B := 5000) (5000 * t.val) (rows_le0 t) G := by
  obtain ⟨-, -, -, -, -, -, -, -, -, -, -, -, e0, e1⟩ := idx_facts0 t
  funext y
  show G (((cfg0.win 6).blk t).view.emb y) = G (ix2 ⟨5000 * t.val + (y 0).val, _⟩ (y 1))
  refine congrArg G (funext fun a => Fin.ext ?_)
  match a with
  | ⟨0, _⟩ => show win0_6.index t (0 : Fin 2) * 5000 + 1 * (y 0).val = 5000 * t.val + (y 0).val; rw [e0]; omega
  | ⟨1, _⟩ => show win0_6.index t (1 : Fin 2) * 128 + 1 * (y 1).val = (y 1).val; rw [e1]; omega

/-- What call 0's output array holds in the end, as a function of the arrays the call finds. -/
abbrev result0 (c : Dev nD) : Mat 100000 128 :=
  layer (A := 100000) (V c main_arg0) (V c main_v18) (V c main_v19) (fun k => V c main_v21 (ix2 (0 : Fin 1) k)) (V c main_v20) (fun k => V c main_v22 (ix2 (0 : Fin 1) k))

/-- What point `t` writes back is the rows `5000 t …` of that function. -/
theorem flushed0_eq (c : Dev nD) (t : Fin cfg0.N) :
    (dat0 V c).flushed 6 t = ((cfg0.win 6).blk t).view.read (Elt Ideal) (result0 V c) := by
  show (cfg0.win 6).cut (grid0.coords t) ((dat0 V c).after 6 t) = _
  rw [after0_6]
  unfold out0_6
  rw [View.canon_unit_zero hz]
  simp only [View.ld_unit_zero (S := S5000x128) hz, View.ld_unit_zero (S := S128x128) hz, View.ld_unit_zero (S := S1x128) hz]
  rw [pay0_eq, read0_6, blk0_0, blk0_1, blk0_2, blk0_3, blk0_4, blk0_5]
  exact layer_rows _ _ _ _ _ _ _ _

/-- An index is in point `t`'s output block iff each coordinate is in the block's range. -/
theorem mem_blk0 (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v23).slice (win0_6.rect t)).set ↔ _
  rw [View.set_slice_whole, Rect.mem_set_unit]
  exact Iff.rfl

/-- Every row of the output array is in the block of the point `row / 5000`. -/
theorem cover0 (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨-, -, -, -, -, -, -, -, -, -, -, -, e0, e1⟩ := idx_facts0 t
  have ht : t.val = (i 0).val / 5000 := rfl
  refine ⟨t, flush0_6 t, ?_⟩
  rw [mem_blk0]
  intro a
  match a with
  | ⟨0, _⟩ => show win0_6.index t (0 : Fin 2) * 5000 ≤ (i 0).val ∧ (i 0).val < win0_6.index t (0 : Fin 2) * 5000 + 5000; rw [e0, ht]; omega
  | ⟨1, _⟩ => show win0_6.index t (1 : Fin 2) * 128 ≤ (i 1).val ∧ (i 1).val < win0_6.index t (1 : Fin 2) * 128 + 128; rw [e1]; omega

/-- THE OUTPUT ARRAY of call 0 after its twenty points: the layer of the arrays the call finds. -/
theorem final0 (c : Dev nD) : (dat0 V c).arrAt 6 cfg0.N = result0 V c :=
  (dat0 V c).arrAt_eq_of_cover 6 (result0 V c) (fun t _ => flushed0_eq V c t) (cover0)

/-! ## Call 1 -/

/-- The index maps of call 1, decided over its twenty points: the two row windows and the output window sit at
    block row `t`, the weight and bias windows at their one block. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem rows_le1 (t : Fin cfg1.N) : 5000 * t.val + 5000 ≤ 100000 := by
  have h : t.val < 20 := lt_of_lt_of_eq t.isLt N_1
  omega

/-- The block of a row window at point `t` is the rows `5000 t … 5000 t + 4999` of its array. -/
theorem blk1_0 (c : Dev nD) (t : Fin cfg1.N) :
    (iblk1 V c 0 t : Vec Ideal S5000x128 .f32) = rowsAt (A := 100000) (B := 5000) (5000 * t.val) (rows_le1 t) (V c main_v23) := by
  obtain ⟨e0, e1, -⟩ := idx_facts1 t
  funext y
  show V c main_v23 (((cfg1.win 0).blk t).view.emb y) = V c main_v23 (ix2 ⟨5000 * t.val + (y 0).val, _⟩ (y 1))
  refine congrArg (V c main_v23) (funext fun a => Fin.ext ?_)
  match a with
  | ⟨0, _⟩ => show win1_0.index t (0 : Fin 2) * 5000 + 1 * (y 0).val = 5000 * t.val + (y 0).val; rw [e0]; omega
  | ⟨1, _⟩ => show win1_0.index t (1 : Fin 2) * 128 + 1 * (y 1).val = (y 1).val; rw [e1]; omega

theorem blk1_1 (c : Dev nD) (t : Fin cfg1.N) :
    (iblk1 V c 1 t : Vec Ideal S5000x128 .f32) = rowsAt (A := 100000) (B := 5000) (5000 * t.val) (rows_le1 t) (V c main_v42) := by
  obtain ⟨-, -, e0, e1, -⟩ := idx_facts1 t
  funext y
  show V c main_v42 (((cfg1.win 1).blk t).view.emb y) = V c main_v42 (ix2 ⟨5000 * t.val + (y 0).val, _⟩ (y 1))
  refine congrArg (V c main_v42) (funext fun a => Fin.ext ?_)
  match a with
  | ⟨0, _⟩ => show win1_1.index t (0 : Fin 2) * 5000 + 1 * (y 0).val = 5000 * t.val + (y 0).val; rw [e0]; omega
  | ⟨1, _⟩ => show win1_1.index t (1 : Fin 2) * 128 + 1 * (y 1).val = (y 1).val; rw [e1]; omega

/-- The block of a weight or bias window at any point is its whole array. -/
theorem blk1_2 (c : Dev nD) (t : Fin cfg1.N) : (iblk1 V c 2 t : Vec Ideal S128x128 .f32) = V c main_v43 := by
  obtain ⟨-, -, -, -, e0, e1, -⟩ := idx_facts1 t
  funext y
  show V c main_v43 (((cfg1.win 2).blk t).view.emb y) = V c main_v43 y
  refine congrArg (V c main_v43) (funext fun a => Fin.ext ?_)
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

theorem blk1_3 (c : Dev nD) (t : Fin cfg1.N) : (iblk1 V c 3 t : Vec Ideal S1x128 .f32) = V c main_v45 := by
  obtain ⟨-, -, -, -, -, -, e0, e1, -⟩ := idx_facts1 t
  funext y
  show V c main_v45 (((cfg1.win 3).blk t).view.emb y) = V c main_v45 y
  refine congrArg (V c main_v45) (funext fun a => Fin.ext ?_)
  match a with
  | ⟨0, _⟩ => show win1_3.index t (0 : Fin 2) * 1 + 1 * (y 0).val = (y 0).val; rw [e0]; omega
  | ⟨1, _⟩ => show win1_3.index t (1 : Fin 2) * 128 + 1 * (y 1).val = (y 1).val; rw [e1]; omega

theorem blk1_4 (c : Dev nD) (t : Fin cfg1.N) : (iblk1 V c 4 t : Vec Ideal S128x128 .f32) = V c main_v44 := by
  obtain ⟨-, -, -, -, -, -, -, -, e0, e1, -⟩ := idx_facts1 t
  funext y
  show V c main_v44 (((cfg1.win 4).blk t).view.emb y) = V c main_v44 y
  refine congrArg (V c main_v44) (funext fun a => Fin.ext ?_)
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega

theorem blk1_5 (c : Dev nD) (t : Fin cfg1.N) : (iblk1 V c 5 t : Vec Ideal S1x128 .f32) = V c main_v46 := by
  obtain ⟨-, -, -, -, -, -, -, -, -, -, e0, e1, -⟩ := idx_facts1 t
  funext y
  show V c main_v46 (((cfg1.win 5).blk t).view.emb y) = V c main_v46 y
  refine congrArg (V c main_v46) (funext fun a => Fin.ext ?_)
  match a with
  | ⟨0, _⟩ => show win1_5.index t (0 : Fin 2) * 1 + 1 * (y 0).val = (y 0).val; rw [e0]; omega
  | ⟨1, _⟩ => show win1_5.index t (1 : Fin 2) * 128 + 1 * (y 1).val = (y 1).val; rw [e1]; omega

/-- The output window's block at point `t`, read off any whole array, is that array's rows `5000 t …`. -/
theorem read1_6 (t : Fin cfg1.N) (G : Mat 100000 128) :
    (((cfg1.win 6).blk t).view.read (Elt Ideal) G : Vec Ideal S5000x128 .f32) = rowsAt (A := 100000) (B := 5000) (5000 * t.val) (rows_le1 t) G := by
  obtain ⟨-, -, -, -, -, -, -, -, -, -, -, -, e0, e1⟩ := idx_facts1 t
  funext y
  show G (((cfg1.win 6).blk t).view.emb y) = G (ix2 ⟨5000 * t.val + (y 0).val, _⟩ (y 1))
  refine congrArg G (funext fun a => Fin.ext ?_)
  match a with
  | ⟨0, _⟩ => show win1_6.index t (0 : Fin 2) * 5000 + 1 * (y 0).val = 5000 * t.val + (y 0).val; rw [e0]; omega
  | ⟨1, _⟩ => show win1_6.index t (1 : Fin 2) * 128 + 1 * (y 1).val = (y 1).val; rw [e1]; omega

/-- What call 1's output array holds in the end, as a function of the arrays the call finds. -/
abbrev result1 (c : Dev nD) : Mat 100000 128 :=
  layer (A := 100000) (V c main_v23) (V c main_v42) (V c main_v43) (fun k => V c main_v45 (ix2 (0 : Fin 1) k)) (V c main_v44) (fun k => V c main_v46 (ix2 (0 : Fin 1) k))

/-- What point `t` writes back is the rows `5000 t …` of that function. -/
theorem flushed1_eq (c : Dev nD) (t : Fin cfg1.N) :
    (dat1 V c).flushed 6 t = ((cfg1.win 6).blk t).view.read (Elt Ideal) (result1 V c) := by
  show (cfg1.win 6).cut (grid1.coords t) ((dat1 V c).after 6 t) = _
  rw [after1_6]
  unfold out1_6
  rw [View.canon_unit_zero hz]
  simp only [View.ld_unit_zero (S := S5000x128) hz, View.ld_unit_zero (S := S128x128) hz, View.ld_unit_zero (S := S1x128) hz]
  rw [pay1_eq, read1_6, blk1_0, blk1_1, blk1_2, blk1_3, blk1_4, blk1_5]
  exact layer_rows _ _ _ _ _ _ _ _

/-- An index is in point `t`'s output block iff each coordinate is in the block's range. -/
theorem mem_blk1 (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v47).slice (win1_6.rect t)).set ↔ _
  rw [View.set_slice_whole, Rect.mem_set_unit]
  exact Iff.rfl

/-- Every row of the output array is in the block of the point `row / 5000`. -/
theorem cover1 (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  obtain ⟨-, -, -, -, -, -, -, -, -, -, -, -, e0, e1⟩ := idx_facts1 t
  have ht : t.val = (i 0).val / 5000 := rfl
  refine ⟨t, flush1_6 t, ?_⟩
  rw [mem_blk1]
  intro a
  match a with
  | ⟨0, _⟩ => show win1_6.index t (0 : Fin 2) * 5000 ≤ (i 0).val ∧ (i 0).val < win1_6.index t (0 : Fin 2) * 5000 + 5000; rw [e0, ht]; omega
  | ⟨1, _⟩ => show win1_6.index t (1 : Fin 2) * 128 ≤ (i 1).val ∧ (i 1).val < win1_6.index t (1 : Fin 2) * 128 + 128; rw [e1]; omega

/-- THE OUTPUT ARRAY of call 1 after its twenty points: the layer of the arrays the call finds. -/
theorem final1 (c : Dev nD) : (dat1 V c).arrAt 6 cfg1.N = result1 V c :=
  (dat1 V c).arrAt_eq_of_cover 6 (result1 V c) (fun t _ => flushed1_eq V c t) (cover1)

end Cert.KernelIdeal.GinRegion

end
-- ==== Proof.KernelHost.lean ====
/-
  What the two kernel calls find in their arrays, read off the host operations of the idealized kernel program.
  Before the first call the host computes the mean over each node's in-neighbours of the node features
  (`meanAgg`: a gather of the source rows, a scatter-add into the destination rows, the in-degree by a second
  scatter-add, clamped below by one, and the quotient), transposes the first layer's two weight matrices and
  recasts its two bias vectors as one-row matrices.  Between the calls it does the same with the first call's
  result in place of the node features and the second layer's weights and biases.  The aggregation is kept as
  ONE function of (features, sources, destinations): nothing here opens it.
-/
import proofs.«177206_j16518444220924_1_alg».proof.Proof.Gen.KernelIdeal.Frame
import Idealize.ShloMosaic.Lib.StableHlo.Run
import Idealize.ShloMosaic.PureOps.Ideal

set_option maxRecDepth 16384

noncomputable section

namespace Cert.KernelIdeal.GinHost

open Cert.KernelIdeal Cert.KernelIdeal.Gen
open Idealize.ShloMosaic Idealize.ShloMosaic.TcCoe Idealize.SL.Sem Idealize.ShloMosaic.StableHlo

/-- The mean of the rows `x[src[e]]` over the edges `e` with `dst[e] = v`, for every node `v`, as the host
    computes it: the operations %0 … %18 of @main (and again %24 … %42) as one function. -/
def meanAgg (x : (⟨S100000x128, .f32⟩ : BufTy).Contents (Elt Ideal)) (src dst : (⟨S1600000, .i32⟩ : BufTy).Contents (Elt Ideal)) :
    (⟨S100000x128, .f32⟩ : BufTy).Contents (Elt Ideal) :=
  Host.divf (F := Ideal)
    (Host.scatterAdd (F := Ideal) scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 dst)
      (Host.gather gather_S100000x128_S1600000x1_S1600000x128_1_0_n_n_0_1_1128 x
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))
    (broadcastInDim S100000x128 ![0, 1] bcast_S100000x1_S100000x128_0_1
      (broadcastInDim S100000x1 ![0] bcast_S100000_S100000x1_0
        (maximumf
          (Host.scatterAdd (F := Ideal) scatter_S100000_S1600000x1_S1600000_n_0_0_1
            (broadcastInDim S100000 ![] bcast_S_S100000 (constant (F := Ideal) S_ .f32 0x00000000#32))
            (broadcastInDim S1600000x1 ![0] bcast_S1600000_S1600000x1_0 dst)
            (broadcastInDim S1600000 ![] bcast_S_S1600000 (constant (F := Ideal) S_ .f32 0x3F800000#32)))
          (broadcastInDim S100000 ![] bcast_S_S100000 (constant (F := Ideal) S_ .f32 0x3F800000#32)))))

variable (m : (ℓ : Loc nD τ sig) → Buf (Elt Ideal) ℓ) (ρ : Dev nD → PrngReg)

/-! ## What the first call finds -/

theorem V1_arg0 (c : Dev nD) : V1 m ρ c main_arg0 = m ((c : Thread nD τ).loc main_arg0) := by
  show StableHlo.after hostOps0 (W0 m ρ c) (Proc.devRef .tc main_arg0) = _
  after_results <;> rfl

set_option maxHeartbeats 4000000 in
theorem V1_v18 (c : Dev nD) : V1 m ρ c main_v18
    = meanAgg (m ((c : Thread nD τ).loc main_arg0)) (m ((c : Thread nD τ).loc main_arg1)) (m ((c : Thread nD τ).loc main_arg2)) := by
  show StableHlo.after hostOps0 (W0 m ρ c) (Proc.devRef .tc main_v18) = _
  unfold meanAgg
  after_results_simp <;> rfl

theorem V1_v19 (c : Dev nD) : V1 m ρ c main_v19
    = transpose S128x128 [1, 0] (m ((c : Thread nD τ).loc main_arg3)) transposes_S128x128_S128x128_1_0 := by
  show StableHlo.after hostOps0 (W0 m ρ c) (Proc.devRef .tc main_v19) = _
  after_results <;> rfl

theorem V1_v20 (c : Dev nD) : V1 m ρ c main_v20
    = transpose S128x128 [1, 0] (m ((c : Thread nD τ).loc main_arg5)) transposes_S128x128_S128x128_1_0 := by
  show StableHlo.after hostOps0 (W0 m ρ c) (Proc.devRef .tc main_v20) = _
  after_results <;> rfl

theorem V1_v21 (c : Dev nD) : V1 m ρ c main_v21
    = shapeCast S1x128 (m ((c : Thread nD τ).loc main_arg4)) shapeCasts_S128_S1x128 := by
  show StableHlo.after hostOps0 (W0 m ρ c) (Proc.devRef .tc main_v21) = _
  after_results <;> rfl

theorem V1_v22 (c : Dev nD) : V1 m ρ c main_v22
    = shapeCast S1x128 (m ((c : Thread nD τ).loc main_arg6)) shapeCasts_S128_S1x128 := by
  show StableHlo.after hostOps0 (W0 m ρ c) (Proc.devRef .tc main_v22) = _
  after_results <;> rfl

/-! ## What the second call finds -/

/-- The first call writes its output array only: the arguments are as launched when it returns. -/
theorem W2_arg1 (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results <;> rfl)

theorem W2_arg2 (c : Dev nD) : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    after_results <;> rfl)

theorem W2_arg7 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results <;> rfl)

theorem W2_arg8 (c : Dev nD) : W2 m ρ c (Proc.devRef .tc main_arg8) = m ((c : Thread nD τ).loc main_arg8) :=
  (W2_of_ne m ρ c main_arg8 (by decide)).trans (by
    show StableHlo.after hostOps0 (W0 m ρ c) (Proc.devRef .tc main_arg8) = _
    after_results <;> rfl)

theorem W2_arg9 (c : Dev nD) : W2 m ρ c (Proc.devRef .tc main_arg9) = m ((c : Thread nD τ).loc main_arg9) :=
  (W2_of_ne m ρ c main_arg9 (by decide)).trans (by
    show StableHlo.after hostOps0 (W0 m ρ c) (Proc.devRef .tc main_arg9) = _
    after_results <;> rfl)

theorem W2_arg10 (c : Dev nD) : W2 m ρ c (Proc.devRef .tc main_arg10) = m ((c : Thread nD τ).loc main_arg10) :=
  (W2_of_ne m ρ c main_arg10 (by decide)).trans (by
    show StableHlo.after hostOps0 (W0 m ρ c) (Proc.devRef .tc main_arg10) = _
    after_results <;> rfl)

/-- The first call's output array when it returns: what its write-backs left. -/
theorem W2_v23 (c : Dev nD) : W2 m ρ c (Proc.devRef .tc main_v23) = (dat0 (V1 m ρ) c).arrAt 6 cfg0.N :=
  W2_arr m ρ c 6

theorem V3_v23 (c : Dev nD) : V3 m ρ c main_v23 = W2 m ρ c (Proc.devRef .tc main_v23) := by
  show StableHlo.after hostOps1 (W2 m ρ c) (Proc.devRef .tc main_v23) = _
  after_results <;> rfl

set_option maxHeartbeats 4000000 in
theorem V3_v42 (c : Dev nD) : V3 m ρ c main_v42
    = meanAgg (W2 m ρ c (Proc.devRef .tc main_v23)) (W2 m ρ c (Proc.devRef .tc main_arg1)) (W2 m ρ c (Proc.devRef .tc main_arg2)) := by
  show StableHlo.after hostOps1 (W2 m ρ c) (Proc.devRef .tc main_v42) = _
  unfold meanAgg
  after_results_simp <;> rfl

theorem V3_v43 (c : Dev nD) : V3 m ρ c main_v43
    = transpose S128x128 [1, 0] (W2 m ρ c (Proc.devRef .tc main_arg7)) transposes_S128x128_S128x128_1_0 := by
  show StableHlo.after hostOps1 (W2 m ρ c) (Proc.devRef .tc main_v43) = _
  after_results <;> rfl

theorem V3_v44 (c : Dev nD) : V3 m ρ c main_v44
    = transpose S128x128 [1, 0] (W2 m ρ c (Proc.devRef .tc main_arg9)) transposes_S128x128_S128x128_1_0 := by
  show StableHlo.after hostOps1 (W2 m ρ c) (Proc.devRef .tc main_v44) = _
  after_results <;> rfl

theorem V3_v45 (c : Dev nD) : V3 m ρ c main_v45
    = shapeCast S1x128 (W2 m ρ c (Proc.devRef .tc main_arg8)) shapeCasts_S128_S1x128 := by
  show StableHlo.after hostOps1 (W2 m ρ c) (Proc.devRef .tc main_v45) = _
  after_results <;> rfl

theorem V3_v46 (c : Dev nD) : V3 m ρ c main_v46
    = shapeCast S1x128 (W2 m ρ c (Proc.devRef .tc main_arg10)) shapeCasts_S128_S1x128 := by
  show StableHlo.after hostOps1 (W2 m ρ c) (Proc.devRef .tc main_v46) = _
  after_results <;> rfl

end Cert.KernelIdeal.GinHost

end
-- ==== Proof.KernelValue.lean ====
/-
  The result array of the idealized kernel program as the network of GinSpec over the program's arguments.
  The first call's output is the layer of the node features and their aggregate (the host's `meanAgg`), with the
  first layer's transposed weights and its biases; the host then aggregates THAT array, and the second call's
  output — the program's result — is the layer of the first output and its aggregate with the second layer's
  weights and biases.  A bias vector recast as a one-row matrix reads, at (0, k), the vector at k.
-/
import proofs.«177206_j16518444220924_1_alg».proof.Proof.KernelRegion
import proofs.«177206_j16518444220924_1_alg».proof.Proof.KernelHost
import Idealize.ShloMosaic.Lib.ValueLayout

set_option maxRecDepth 16384

noncomputable section

namespace Cert.KernelIdeal.GinValue

open Cert.KernelIdeal Cert.KernelIdeal.Gen Cert.KernelIdeal.GinRegion Cert.KernelIdeal.GinHost
open Idealize.ShloMosaic Idealize.ShloMosaic.TcCoe Idealize.ShloMosaic.ValueIdx Idealize.SL.Sem Cert.LibMatmul Cert.GinSpec

variable (m : (ℓ : Loc nD τ sig) → Buf (Elt Ideal) ℓ) (ρ : Dev nD → PrngReg)

/-- A bias vector recast as a [1, 128] matrix, read along its one row. -/
theorem bias_row (b : FVec Ideal S128 .f32) :
    (fun k : Fin 128 => shapeCast S1x128 b shapeCasts_S128_S1x128 (ix2 (0 : Fin 1) k)) = fun k => b (ix1 k) :=
  funext fun k => shapeCast_a_1a_apply b shapeCasts_S128_S1x128 0 k

/-- The first layer's result, over the arguments. -/
def first (c : Dev nD) : Mat 100000 128 :=
  layer (A := 100000) (m ((c : Thread nD τ).loc main_arg0)) (meanAgg (m ((c : Thread nD τ).loc main_arg0)) (m ((c : Thread nD τ).loc main_arg1)) (m ((c : Thread nD τ).loc main_arg2)))
    (transpose S128x128 [1, 0] (m ((c : Thread nD τ).loc main_arg3)) transposes_S128x128_S128x128_1_0) (fun k => m ((c : Thread nD τ).loc main_arg4) (ix1 k)) (transpose S128x128 [1, 0] (m ((c : Thread nD τ).loc main_arg5)) transposes_S128x128_S128x128_1_0) (fun k => m ((c : Thread nD τ).loc main_arg6) (ix1 k))

/-- THE FIRST CALL'S OUTPUT ARRAY when the call returns. -/
theorem first_eq (c : Dev nD) : W2 m ρ c (Proc.devRef .tc main_v23) = first m c := by
  rw [W2_v23, final0]
  show layer (A := 100000) (V1 m ρ c main_arg0) (V1 m ρ c main_v18) (V1 m ρ c main_v19) (fun k => V1 m ρ c main_v21 (ix2 (0 : Fin 1) k))
    (V1 m ρ c main_v20) (fun k => V1 m ρ c main_v22 (ix2 (0 : Fin 1) k)) = _
  rw [V1_arg0, V1_v18, V1_v19, V1_v20, V1_v21, V1_v22, bias_row, bias_row]
  rfl

/-- THE PROGRAM'S RESULT ARRAY at the end of the run: the two-layer network. -/
theorem result_eq (c : Dev nD) : W4 m ρ c (Proc.devRef .tc main_v47)
    = network (A := 100000) (fun y => meanAgg y (m ((c : Thread nD τ).loc main_arg1)) (m ((c : Thread nD τ).loc main_arg2))) (m ((c : Thread nD τ).loc main_arg0))
        (transpose S128x128 [1, 0] (m ((c : Thread nD τ).loc main_arg3)) transposes_S128x128_S128x128_1_0) (fun k => m ((c : Thread nD τ).loc main_arg4) (ix1 k)) (transpose S128x128 [1, 0] (m ((c : Thread nD τ).loc main_arg5)) transposes_S128x128_S128x128_1_0) (fun k => m ((c : Thread nD τ).loc main_arg6) (ix1 k))
        (transpose S128x128 [1, 0] (m ((c : Thread nD τ).loc main_arg7)) transposes_S128x128_S128x128_1_0) (fun k => m ((c : Thread nD τ).loc main_arg8) (ix1 k)) (transpose S128x128 [1, 0] (m ((c : Thread nD τ).loc main_arg9)) transposes_S128x128_S128x128_1_0) (fun k => m ((c : Thread nD τ).loc main_arg10) (ix1 k)) := by
  rw [show W4 m ρ c (Proc.devRef .tc main_v47) = (dat1 (V3 m ρ) c).arrAt 6 cfg1.N from W4_arr m ρ c 6, final1]
  show layer (A := 100000) (V3 m ρ c main_v23) (V3 m ρ c main_v42) (V3 m ρ c main_v43) (fun k => V3 m ρ c main_v45 (ix2 (0 : Fin 1) k))
    (V3 m ρ c main_v44) (fun k => V3 m ρ c main_v46 (ix2 (0 : Fin 1) k)) = _
  rw [V3_v23, V3_v42, V3_v43, V3_v44, V3_v45, V3_v46, W2_arg1, W2_arg2, W2_arg7, W2_arg8, W2_arg9, W2_arg10, first_eq, bias_row, bias_row]
  rfl

end Cert.KernelIdeal.GinValue

end
-- ==== Proof.RefValue.lean ====
/-
  The idealized reference's result as the network of GinSpec.  The reference applies to the node features plus
  their aggregate two affine maps (a `dot_general` with the transposed weight matrix, then the bias vector
  broadcast to a one-row matrix and that over all rows, added) and clamps at zero, TWICE after the first layer and
  once after the second; each `dot_general` is a matrix product, the doubly broadcast bias adds the bias to every
  row, the maximum with the zero splat is the clamp and a second clamp changes nothing.  The second layer's
  aggregate is the first's aggregation applied to the first layer's result: the same operations, which are never
  opened.
-/
import proofs.«177206_j16518444220924_1_alg».proof.Proof.Gen.ReferenceIdeal.Read
import proofs.«177206_j16518444220924_1_alg».proof.Proof.GinSpec

set_option maxRecDepth 16384

noncomputable section

open scoped BigOperators

namespace Cert.ReferenceIdeal.GinRef

open Cert.ReferenceIdeal Cert.ReferenceIdeal.Gen Cert.ReferenceIdeal.Read
open Idealize.ShloMosaic Idealize.ShloMosaic.ValueIdx Cert.LibMatmul Cert.GinSpec

/-- The reference's `dot_general` is the matrix product. -/
theorem dot_eq (x : FVec Ideal S100000x128 .f32) (w : FVec Ideal S128x128 .f32) :
    Host.dotGeneral dot_S100000x128_S128x128_S100000x128_1_0_0_1_n_n none x w = MM (A := 100000) (K := 128) (B := 128) x w :=
  dotGeneral_eq dot_S100000x128_S128x128_S100000x128_1_0_0_1_n_n rfl rfl rfl rfl rfl rfl none .single x w

/-- A bias vector broadcast to one row and that row to every row reads, at (p, q), the vector at q. -/
theorem bias_eq (b : FVec Ideal S128 .f32) (i : S100000x128.Idx) :
    broadcastInDim S100000x128 ![0, 1] bcast_S1x128_S100000x128_0_1 (broadcastInDim S1x128 ![1] bcast_S128_S1x128_1 b) i = b (ix1 (i 1)) := by
  refine ((val_main_v23_apply (F := Ideal) b i).trans (val_main_v22_apply (F := Ideal) b (idx_main_v23 i))).trans
    (congrArg b (funext fun a => Fin.ext ?_))
  match a with
  | ⟨0, _⟩ => rfl

/-- The zero splat reads zero everywhere. -/
theorem zero_eq (i : S100000x128.Idx) :
    broadcastInDim S100000x128 ![] bcast_S_S100000x128 (constant (F := Ideal) S_ .f32 0x00000000#32) i = 0 := by
  refine ((val_main_call0_v0_apply (F := Ideal) i).trans (val_main_call0_cst_apply (F := Ideal) _)).trans ?_
  exact Ideal.ofBits_zero_f32

/-- One layer as the reference spells it. -/
theorem ref_layer (X AGG : FVec Ideal S100000x128 .f32) (wa wb : FVec Ideal S128x128 .f32) (ba bb : FVec Ideal S128 .f32) :
    maximumf
      (addf (Host.dotGeneral dot_S100000x128_S128x128_S100000x128_1_0_0_1_n_n none
          (addf (Host.dotGeneral dot_S100000x128_S128x128_S100000x128_1_0_0_1_n_n none (addf X AGG) wa)
            (broadcastInDim S100000x128 ![0, 1] bcast_S1x128_S100000x128_0_1 (broadcastInDim S1x128 ![1] bcast_S128_S1x128_1 ba)))
          wb)
        (broadcastInDim S100000x128 ![0, 1] bcast_S1x128_S100000x128_0_1 (broadcastInDim S1x128 ![1] bcast_S128_S1x128_1 bb)))
      (broadcastInDim S100000x128 ![] bcast_S_S100000x128 (constant (F := Ideal) S_ .f32 0x00000000#32))
    = layer (A := 100000) X AGG wa (fun k => ba (ix1 k)) wb (fun k => bb (ix1 k)) := by
  rw [dot_eq, dot_eq]
  have hh : (fun j => MM (A := 100000) (fun l => X l + AGG l) wa j
        + broadcastInDim S100000x128 ![0, 1] bcast_S1x128_S100000x128_0_1 (broadcastInDim S1x128 ![1] bcast_S128_S1x128_1 ba) j)
      = hidden (A := 100000) X AGG wa (fun k => ba (ix1 k)) := by
    funext j
    rw [bias_eq]
    rfl
  funext i
  show max (MM (A := 100000) (fun j => MM (A := 100000) (fun l => X l + AGG l) wa j
        + broadcastInDim S100000x128 ![0, 1] bcast_S1x128_S100000x128_0_1 (broadcastInDim S1x128 ![1] bcast_S128_S1x128_1 ba) j) wb i
      + broadcastInDim S100000x128 ![0, 1] bcast_S1x128_S100000x128_0_1 (broadcastInDim S1x128 ![1] bcast_S128_S1x128_1 bb) i)
    (broadcastInDim S100000x128 ![] bcast_S_S100000x128 (constant (F := Ideal) S_ .f32 0x00000000#32) i) = _
  rw [zero_eq, bias_eq, hh]
  rfl

/-- The first layer's result, after its two clamps. -/
theorem layer1_eq (x0 : (⟨S100000x128, .f32⟩ : BufTy).Contents (Elt Ideal)) (x1 x2 : (⟨S1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) :
    val_main_v31 (F := Ideal) x0 x1 x2 x3 x4 x5 x6
      = layer (A := 100000) x0 (val_main_v18 (F := Ideal) x0 x1 x2) (val_main_v20 (F := Ideal) x3) (fun k => x4 (ix1 k))
          (val_main_v25 (F := Ideal) x5) (fun k => x6 (ix1 k)) := by
  have h := ref_layer x0 (val_main_v18 (F := Ideal) x0 x1 x2) (val_main_v20 (F := Ideal) x3) (val_main_v25 (F := Ideal) x5) x4 x6
  funext i
  have e : val_main_v31 (F := Ideal) x0 x1 x2 x3 x4 x5 x6 i
      = max (max (val_main_v29 (F := Ideal) x0 x1 x2 x3 x4 x5 x6 i) (val_main_call0_v0 (F := Ideal) i)) (val_main_call1_v0 (F := Ideal) i) := rfl
  have ez : val_main_call1_v0 (F := Ideal) i = val_main_call0_v0 (F := Ideal) i := rfl
  rw [e, ez, relu_relu]
  exact congrFun h i

/-- The second layer's aggregate is the first's aggregation of the first layer's result. -/
theorem agg2_eq (x0 : (⟨S100000x128, .f32⟩ : BufTy).Contents (Elt Ideal)) (x1 x2 : (⟨S1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) :
    val_main_v50 (F := Ideal) x0 x1 x2 x3 x4 x5 x6 = val_main_v18 (F := Ideal) (val_main_v31 (F := Ideal) x0 x1 x2 x3 x4 x5 x6) x1 x2 := rfl

/-- The second layer's result. -/
theorem layer2_eq (x0 : (⟨S100000x128, .f32⟩ : BufTy).Contents (Elt Ideal)) (x1 x2 : (⟨S1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) :
    val_main_v62 (F := Ideal) x0 x1 x2 x3 x4 x5 x6 x7 x8 x9 x10
      = layer (A := 100000) (val_main_v31 (F := Ideal) x0 x1 x2 x3 x4 x5 x6) (val_main_v50 (F := Ideal) x0 x1 x2 x3 x4 x5 x6)
          (val_main_v52 (F := Ideal) x7) (fun k => x8 (ix1 k)) (val_main_v57 (F := Ideal) x9) (fun k => x10 (ix1 k)) :=
  ref_layer (val_main_v31 (F := Ideal) x0 x1 x2 x3 x4 x5 x6) (val_main_v50 (F := Ideal) x0 x1 x2 x3 x4 x5 x6) (val_main_v52 (F := Ideal) x7) (val_main_v57 (F := Ideal) x9) x8 x10

/-- THE REFERENCE'S RESULT: the two-layer network over the reference's own aggregation and transposed weights. -/
theorem result_eq (x0 : (⟨S100000x128, .f32⟩ : BufTy).Contents (Elt Ideal)) (x1 x2 : (⟨S1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) :
    val_main_v62 (F := Ideal) x0 x1 x2 x3 x4 x5 x6 x7 x8 x9 x10
      = network (A := 100000) (fun y => val_main_v18 (F := Ideal) y x1 x2) x0
          (val_main_v20 (F := Ideal) x3) (fun k => x4 (ix1 k)) (val_main_v25 (F := Ideal) x5) (fun k => x6 (ix1 k))
          (val_main_v52 (F := Ideal) x7) (fun k => x8 (ix1 k)) (val_main_v57 (F := Ideal) x9) (fun k => x10 (ix1 k)) := by
  rw [layer2_eq, agg2_eq, layer1_eq]
  rfl

end Cert.ReferenceIdeal.GinRef

end
-- ==== Proof.lean ====
/-
  Two layers of a graph network on 100000 nodes with 128 features: each layer adds to every node's features the
  mean of its in-neighbours' features, applies two affine maps (a matrix product with a transposed 128 × 128
  weight matrix, then a bias added to every row) and clamps at zero.  The kernel program computes the neighbour
  means on the host and each layer's affine maps and clamp in a kernel call over twenty blocks of 5000 node
  rows; the reference computes everything on the host, and clamps a second time after the first layer.

  At the ideal values both programs compute the same function of their arguments, the `network` of
  Proof/GinSpec.lean: the conversions to bf16 around the kernel's matrix products are the identity, a matrix
  product into the zero splat and the host's `dot_general` are the same sums (Proof/LibMatmul.lean), a block of rows
  of a layer is the layer of that block of rows, the twenty blocks cover the array (Proof/KernelRegion.lean), and
  clamping twice is clamping once.  The neighbour mean is the same chain of host operations in both programs — a
  gather, two scatter-adds, a maximum and a quotient — and is carried as one function that no proof opens: no fact
  about sums of extended reals is needed beyond the matrix products being the same sums, so the precondition
  (finite inputs) is never used.

  The frames of the two kernel programs are the generated ones; the reference's is its generated run with the
  result dropped; the idealization rewrote nothing, so `preserves` is trivial.
-/
import proofs.«177206_j16518444220924_1_alg».proof.Defs
import proofs.«177206_j16518444220924_1_alg».proof.Proof.Gen.Kernel
import proofs.«177206_j16518444220924_1_alg».proof.Proof.Gen.Kernel.Frame
import proofs.«177206_j16518444220924_1_alg».proof.Proof.Gen.KernelIdeal
import proofs.«177206_j16518444220924_1_alg».proof.Proof.Gen.KernelIdeal.Frame
import proofs.«177206_j16518444220924_1_alg».proof.Proof.Gen.ReferenceIdeal
import proofs.«177206_j16518444220924_1_alg».proof.Proof.Gen.ReferenceIdeal.Run
import proofs.«177206_j16518444220924_1_alg».proof.Proof.Gen.Pre_finite_inputs
import proofs.«177206_j16518444220924_1_alg».proof.Proof.KernelRun
import proofs.«177206_j16518444220924_1_alg».proof.Proof.KernelValue
import proofs.«177206_j16518444220924_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The neighbour mean of the kernel program's host side and the reference's are the same operations. -/
theorem agg_eq (x : (⟨Cert.KernelIdeal.S100000x128, .f32⟩ : BufTy).Contents (Elt Ideal))
    (s d : (⟨Cert.KernelIdeal.S1600000, .i32⟩ : BufTy).Contents (Elt Ideal)) :
    Cert.ReferenceIdeal.Read.val_main_v18 (F := Ideal) x s d = Cert.KernelIdeal.GinHost.meanAgg x s d := rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the network of their (agreeing) arguments in their result arrays. -/
theorem algebraic : Cert.algebraic_KernelIdeal_ReferenceIdeal := by
  intro m ρ m' ρ' _ hagree
  refine ⟨_, Cert.KernelIdeal.GinRun.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v62_eq, Cert.ReferenceIdeal.GinRef.result_eq, Cert.KernelIdeal.GinValue.result_eq,
    h0, h1, h2, h3, h4, h5, h6, h7, h8, h9, h10]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
